-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S1600000 : Shape := ⟨1, ![1600000]⟩
abbrev S3200000 : Shape := ⟨1, ![3200000]⟩
abbrev S64x256 : Shape := ⟨2, ![64, 256]⟩
abbrev S40x192 : Shape := ⟨2, ![40, 192]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S3200000 : S_.BroadcastsInDim S3200000 (![] : Fin 0 → Fin S3200000.rank)
  reducesTo_S3200000_S_d0 : S3200000.ReducesTo [0] S_
  bcast_S_S64x256 : S_.BroadcastsInDim S64x256 (![] : Fin 0 → Fin S64x256.rank)
  reducesTo_S64x256_S_d0_1 : S64x256.ReducesTo [0, 1] S_
  bcast_S_S40x192 : S_.BroadcastsInDim S40x192 (![] : Fin 0 → Fin S40x192.rank)
  reducesTo_S40x192_S_d0_1 : S40x192.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg9 : FVec F S40x192 .f32) (main_arg10 : FVec F S40 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S40x192 .f32 := Host.absf main_arg9
  let main_cst_6 : FVec F S_ .f32 := constant S_ .f32 0x7F800000#32
  let main_v20 : FVec F S40x192 .f32 := broadcastInDim S40x192 ![] bcast_S_S40x192 main_cst_6
  let main_v21 : IVec S40x192 1 := cmpf .olt main_v19 main_v20
  let main_c_7 : IVec S_ 1 := constantI S_ 1 1#1
  let main_v22 : IVec S_ 1 := (fun x v => Host.reduce IntOp.andi x v reducesTo_S40x192_S_d0_1 h_S_) main_v21 main_c_7
  let main_v23 : IVec S_ 1 := andi main_v18 main_v22
  let main_v24 : FVec F S40 .f32 := Host.absf main_arg10
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x256 .f32) (main_arg1 : IVec S2x1600000 32) (main_arg2 : IVec S1600000 32) (main_arg3 : IVec S1600000 32) (main_arg4 : FVec F S1600000 .f32) (main_arg5 : IVec S3200000 32) (main_arg6 : IVec S3200000 32) (main_arg7 : FVec F S3200000 .f32) (main_arg8 : FVec F S64x256 .f32) (main_arg9 : FVec F S40x192 .f32) (main_arg10 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg4
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S3200000 .f32 := Host.absf main_arg7
  let main_cst_2 : FVec F S_ .f32 := constant S_ .f32 0x7F800000#32
  let main_v10 : FVec F S3200000 .f32 := broadcastInDim S3200000 ![] bcast_S_S3200000 main_cst_2
  let main_v11 : IVec S3200000 1 := cmpf .olt main_v9 main_v10
  let main_c_3 : IVec S_ 1 := constantI S_ 1 1#1
  let main_v12 : IVec S_ 1 := (fun x v => Host.reduce IntOp.andi x v reducesTo_S3200000_S_d0 h_S_) main_v11 main_c_3
  let main_v13 : IVec S_ 1 := andi main_v8 main_v12
  let main_v14 : FVec F S64x256 .f32 := Host.absf main_arg8
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg9 main_arg10 main_v13 main_v16
-- ==== Kernel.lean ====
abbrev S100000x256 : Shape := ⟨2, ![100000, 256]⟩
abbrev S2x1600000 : Shape := ⟨2, ![2, 1600000]⟩
abbrev S1600000 : Shape := ⟨1, ![1600000]⟩
abbrev S3200000 : Shape := ⟨1, ![3200000]⟩
abbrev S64x256 : Shape := ⟨2, ![64, 256]⟩
abbrev S40x192 : Shape := ⟨2, ![40, 192]⟩
abbrev S40 : Shape := ⟨1, ![40]⟩
abbrev S256x64 : Shape := ⟨2, ![256, 64]⟩
abbrev S100000x64 : Shape := ⟨2, ![100000, 64]⟩
abbrev S4000x256 : Shape := ⟨2, ![4000, 256]⟩
abbrev S4000x64 : Shape := ⟨2, ![4000, 64]⟩
abbrev S1600000x1 : Shape := ⟨2, ![1600000, 1]⟩
abbrev S_ : Shape := ⟨0, ![]⟩
abbrev S1600000x64 : Shape := ⟨2, ![1600000, 64]⟩
abbrev S3200000x1 : Shape := ⟨2, ![3200000, 1]⟩
abbrev S3200000x64 : Shape := ⟨2, ![3200000, 64]⟩
abbrev S40x64 : Shape := ⟨2, ![40, 64]⟩
abbrev S64x40 : Shape := ⟨2, ![64, 40]⟩
abbrev S1x40 : Shape := ⟨2, ![1, 40]⟩
abbrev S100000x40 : Shape := ⟨2, ![100000, 40]⟩
abbrev S4000x40 : Shape := ⟨2, ![4000, 40]⟩

abbrev nBuf : Space → Nat
  | .hbm => 61
  | .vmem => 17
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S3200000, .i32⟩
  | .hbm, ⟨6, _⟩ => ⟨S3200000, .i32⟩
  | .hbm, ⟨7, _⟩ => ⟨S3200000, .f32⟩
  | .hbm, ⟨8, _⟩ => ⟨S64x256, .f32⟩
  | .hbm, ⟨9, _⟩ => ⟨S40x192, .f32⟩
  | .hbm, ⟨10, _⟩ => ⟨S40, .f32⟩
  | .hbm, ⟨11, _⟩ => ⟨S100000x256, .bf16⟩
  | .hbm, ⟨12, _⟩ => ⟨S256x64, .f32⟩
  | .hbm, ⟨13, _⟩ => ⟨S256x64, .bf16⟩
  | .hbm, ⟨14, _⟩ => ⟨S100000x64, .f32⟩
  | .hbm, ⟨15, _⟩ => ⟨S1600000x1, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x64, .f32⟩
  | .hbm, ⟨25, _⟩ => ⟨S1600000x64, .f32⟩
  | .hbm, ⟨26, _⟩ => ⟨S1600000x64, .f32⟩
  | .hbm, ⟨27, _⟩ => ⟨S_, .f32⟩
  | .hbm, ⟨28, _⟩ => ⟨S100000x64, .f32⟩
  | .hbm, ⟨29, _⟩ => ⟨S1600000x1, .i32⟩
  | .hbm, ⟨30, _⟩ => ⟨S100000x64, .f32⟩
  | .hbm, ⟨31, _⟩ => ⟨S3200000x1, .f32⟩
  | .hbm, ⟨32, _⟩ => ⟨S_, .i32⟩
  | .hbm, ⟨33, _⟩ => ⟨S3200000, .i32⟩
  | .hbm, ⟨34, _⟩ => ⟨S3200000, .i1⟩
  | .hbm, ⟨35, _⟩ => ⟨S_, .i32⟩
  | .hbm, ⟨36, _⟩ => ⟨S3200000, .i32⟩
  | .hbm, ⟨37, _⟩ => ⟨S3200000, .i32⟩
  | .hbm, ⟨38, _⟩ => ⟨S3200000, .i32⟩
  | .hbm, ⟨39, _⟩ => ⟨S3200000x1, .i32⟩
  | .hbm, ⟨40, _⟩ => ⟨S3200000x64, .f32⟩
  | .hbm, ⟨41, _⟩ => ⟨S3200000x64, .f32⟩
  | .hbm, ⟨42, _⟩ => ⟨S3200000x64, .f32⟩
  | .hbm, ⟨43, _⟩ => ⟨S_, .f32⟩
  | .hbm, ⟨44, _⟩ => ⟨S100000x64, .f32⟩
  | .hbm, ⟨45, _⟩ => ⟨S3200000x1, .i32⟩
  | .hbm, ⟨46, _⟩ => ⟨S100000x64, .f32⟩
  | .hbm, ⟨47, _⟩ => ⟨S100000x64, .bf16⟩
  | .hbm, ⟨48, _⟩ => ⟨S100000x64, .bf16⟩
  | .hbm, ⟨49, _⟩ => ⟨S100000x64, .bf16⟩
  | .hbm, ⟨50, _⟩ => ⟨S40x64, .f32⟩
  | .hbm, ⟨51, _⟩ => ⟨S64x40, .f32⟩
  | .hbm, ⟨52, _⟩ => ⟨S64x40, .bf16⟩
  | .hbm, ⟨53, _⟩ => ⟨S40x64, .f32⟩
  | .hbm, ⟨54, _⟩ => ⟨S64x40, .f32⟩
  | .hbm, ⟨55, _⟩ => ⟨S64x40, .bf16⟩
  | .hbm, ⟨56, _⟩ => ⟨S40x64, .f32⟩
  | .hbm, ⟨57, _⟩ => ⟨S64x40, .f32⟩
  | .hbm, ⟨58, _⟩ => ⟨S64x40, .bf16⟩
  | .hbm, ⟨59, _⟩ => ⟨S1x40, .f32⟩
  | .hbm, ⟨60, _⟩ => ⟨S100000x40, .f32⟩
  | .local _ .vmem, ⟨0, _⟩ => ⟨S4000x256, .bf16⟩
  | .local _ .vmem, ⟨1, _⟩ => ⟨S4000x256, .bf16⟩
  | .local _ .vmem, ⟨2, _⟩ => ⟨S256x64, .bf16⟩
  | .local _ .vmem, ⟨3, _⟩ => ⟨S4000x64, .f32⟩
  | .local _ .vmem, ⟨4, _⟩ => ⟨S4000x64, .f32⟩
  | .local _ .vmem, ⟨5, _⟩ => ⟨S4000x64, .bf16⟩
  | .local _ .vmem, ⟨6, _⟩ => ⟨S4000x64, .bf16⟩
  | .local _ .vmem, ⟨7, _⟩ => ⟨S4000x64, .bf16⟩
  | .local _ .vmem, ⟨8, _⟩ => ⟨S4000x64, .bf16⟩
  | .local _ .vmem, ⟨9, _⟩ => ⟨S4000x64, .bf16⟩
  | .local _ .vmem, ⟨10, _⟩ => ⟨S4000x64, .bf16⟩
  | .local _ .vmem, ⟨11, _⟩ => ⟨S64x40, .bf16⟩
  | .local _ .vmem, ⟨12, _⟩ => ⟨S64x40, .bf16⟩
  | .local _ .vmem, ⟨13, _⟩ => ⟨S64x40, .bf16⟩
  | .local _ .vmem, ⟨14, _⟩ => ⟨S1x40, .f32⟩
  | .local _ .vmem, ⟨15, _⟩ => ⟨S4000x40, .f32⟩
  | .local _ .vmem, ⟨16, _⟩ => ⟨S4000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_1 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x40 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x40 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x40 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x40 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x40 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bitsLt_bf16_f32 : FTy.bits .bf16 < FTy.bits .f32
  transposes_S64x256_S256x64_1_0 : S64x256.Transposes [1, 0] S256x64
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S4000x64_S4000x64_0_0 : ∀ a, (![0, 0] : Fin 2 → Nat) a + S4000x64.size a ≤ S4000x64.size a
  h_S4000x64 : 0 < S4000x64.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  slices_S40x192_S40x64_0_0 : S40x192.Slices ![0, 0] S40x64
  transposes_S40x64_S64x40_1_0 : S40x64.Transposes [1, 0] S64x40
  slices_S40x192_S40x64_0_64 : S40x192.Slices ![0, 64] S40x64
  slices_S40x192_S40x64_0_128 : S40x192.Slices ![0, 128] S40x64
  shapeCasts_S40_S1x40 : S40.ShapeCasts S1x40
  shapeCasts_S4000x64_S4000x64 : S4000x64.ShapeCasts S4000x64
  inb_S64x40_S64x40_0_0 : ∀ a, (![0, 0] : Fin 2 → Nat) a + S64x40.size a ≤ S64x40.size a
  h_S64x40 : 0 < S64x40.numel
  shapeCasts_S64x40_S64x40 : S64x40.ShapeCasts S64x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  inb_S4000x40_S4000x40_0_0 : ∀ a, (![0, 0] : Fin 2 → Nat) a + S4000x40.size a ≤ S4000x40.size a
  h_S4000x40 : 0 < S4000x40.numel
  dot_S4000x256_S256x64_S4000x64_1_0_0_1_n_n_wf : DotDims.WF S4000x256 S256x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S4000x64_S64x40_S4000x40_1_0_0_1_n_n_wf : DotDims.WF S4000x64 S64x40 S4000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .bf16 = 32 ∨ (Rect.block (s := S100000x256) S4000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .bf16 = 32 ∨ (Rect.block (s := S256x64) S256x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .bf16 = 32 ∨ (Rect.block (s := S100000x64) S4000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .bf16 = 32 ∨ (Rect.block (s := S100000x64) S4000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S100000x64.size a
  hwx1_2 : ∀ i : grid1.Coords, EltTy.bits .bf16 = 32 ∨ (Rect.block (s := S100000x64) S4000x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x40.size a ≤ S64x40.size a
  hwx1_3 : ∀ i : grid1.Coords, EltTy.bits .bf16 = 32 ∨ (Rect.block (s := S64x40) S64x40.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x40.size a ≤ S64x40.size a
  hwx1_4 : ∀ i : grid1.Coords, EltTy.bits .bf16 = 32 ∨ (Rect.block (s := S64x40) S64x40.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x40.size a ≤ S64x40.size a
  hwx1_5 : ∀ i : grid1.Coords, EltTy.bits .bf16 = 32 ∨ (Rect.block (s := S64x40) S64x40.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x40.size a ≤ S1x40.size a
  hwx1_6 : ∀ i : grid1.Coords, EltTy.bits .f32 = 32 ∨ (Rect.block (s := S1x40) S1x40.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x40.size a ≤ S100000x40.size a
  hwx1_7 : ∀ i : grid1.Coords, EltTy.bits .f32 = 32 ∨ (Rect.block (s := S100000x40) S4000x40.size (cc1_transform_7 i) (hinb1_7 i)).WholeWords (EltTy.packing .f32)

variable [Facts₀]

def dot_S4000x256_S256x64_S4000x64_1_0_0_1_n_n : DotDims S4000x256 S256x64 S4000x64 where
  lhsContracting := [1]
  rhsContracting := [0]
  lhsNonContracting := [0]
  rhsNonContracting := [1]
  lhsBatch := []
  rhsBatch := []
  wf := dot_S4000x256_S256x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S4000x64_S64x40_S4000x40_1_0_0_1_n_n : DotDims S4000x64 S64x40 S4000x40 where
  lhsContracting := [1]
  rhsContracting := [0]
  lhsNonContracting := [0]
  rhsNonContracting := [1]
  lhsBatch := []
  rhsBatch := []
  wf := dot_S4000x64_S64x40_S4000x40_1_0_0_1_n_n_wf

abbrev win0_0 : Pipeline.Window sig grid0 :=
  Pipeline.Window.ofSpec (Memref.whole main_v0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v30) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S4000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35) S64x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S64x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S64x40.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S1x40.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v43) S4000x40.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S1600000 : Shape := ⟨1, ![1600000]⟩
abbrev S3200000 : Shape := ⟨1, ![3200000]⟩
abbrev S64x256 : Shape := ⟨2, ![64, 256]⟩
abbrev S40x192 : Shape := ⟨2, ![40, 192]⟩
abbrev S40 : Shape := ⟨1, ![40]⟩
abbrev S256x64 : Shape := ⟨2, ![256, 64]⟩
abbrev S100000x64 : Shape := ⟨2, ![100000, 64]⟩
abbrev S1600000x1 : Shape := ⟨2, ![1600000, 1]⟩
abbrev S_ : Shape := ⟨0, ![]⟩
abbrev S1600000x64 : Shape := ⟨2, ![1600000, 64]⟩
abbrev S3200000x1 : Shape := ⟨2, ![3200000, 1]⟩
abbrev S3200000x64 : Shape := ⟨2, ![3200000, 64]⟩
abbrev S100000x192 : Shape := ⟨2, ![100000, 192]⟩
abbrev S192x40 : Shape := ⟨2, ![192, 40]⟩
abbrev S100000x40 : Shape := ⟨2, ![100000, 40]⟩
abbrev S1x40 : Shape := ⟨2, ![1, 40]⟩

abbrev nBuf : Space → Nat
  | .hbm => 51
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S3200000, .i32⟩
  | .hbm, ⟨6, _⟩ => ⟨S3200000, .i32⟩
  | .hbm, ⟨7, _⟩ => ⟨S3200000, .f32⟩
  | .hbm, ⟨8, _⟩ => ⟨S64x256, .f32⟩
  | .hbm, ⟨9, _⟩ => ⟨S40x192, .f32⟩
  | .hbm, ⟨10, _⟩ => ⟨S40, .f32⟩
  | .hbm, ⟨11, _⟩ => ⟨S256x64, .f32⟩
  | .hbm, ⟨12, _⟩ => ⟨S100000x64, .f32⟩
  | .hbm, ⟨13, _⟩ => ⟨S1600000x1, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S1600000x64, .f32⟩
  | .hbm, ⟨24, _⟩ => ⟨S1600000x64, .f32⟩
  | .hbm, ⟨25, _⟩ => ⟨S_, .f32⟩
  | .hbm, ⟨26, _⟩ => ⟨S100000x64, .f32⟩
  | .hbm, ⟨27, _⟩ => ⟨S1600000x1, .i32⟩
  | .hbm, ⟨28, _⟩ => ⟨S100000x64, .f32⟩
  | .hbm, ⟨29, _⟩ => ⟨S3200000x1, .f32⟩
  | .hbm, ⟨30, _⟩ => ⟨S_, .i32⟩
  | .hbm, ⟨31, _⟩ => ⟨S3200000, .i32⟩
  | .hbm, ⟨32, _⟩ => ⟨S3200000, .i1⟩
  | .hbm, ⟨33, _⟩ => ⟨S_, .i32⟩
  | .hbm, ⟨34, _⟩ => ⟨S3200000, .i32⟩
  | .hbm, ⟨35, _⟩ => ⟨S3200000, .i32⟩
  | .hbm, ⟨36, _⟩ => ⟨S3200000, .i32⟩
  | .hbm, ⟨37, _⟩ => ⟨S3200000x1, .i32⟩
  | .hbm, ⟨38, _⟩ => ⟨S3200000x64, .f32⟩
  | .hbm, ⟨39, _⟩ => ⟨S3200000x64, .f32⟩
  | .hbm, ⟨40, _⟩ => ⟨S3200000x64, .f32⟩
  | .hbm, ⟨41, _⟩ => ⟨S_, .f32⟩
  | .hbm, ⟨42, _⟩ => ⟨S100000x64, .f32⟩
  | .hbm, ⟨43, _⟩ => ⟨S3200000x1, .i32⟩
  | .hbm, ⟨44, _⟩ => ⟨S100000x64, .f32⟩
  | .hbm, ⟨45, _⟩ => ⟨S100000x192, .f32⟩
  | .hbm, ⟨46, _⟩ => ⟨S192x40, .f32⟩
  | .hbm, ⟨47, _⟩ => ⟨S100000x40, .f32⟩
  | .hbm, ⟨48, _⟩ => ⟨S1x40, .f32⟩
  | .hbm, ⟨49, _⟩ => ⟨S100000x40, .f32⟩
  | .hbm, ⟨50, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]

class Facts₀ : Prop where
  transposes_S64x256_S256x64_1_0 : S64x256.Transposes [1, 0] S256x64
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  concatenates_S100000x64_S100000x64_S100000x64_S100000x192_d1 : Shape.Concatenates [S100000x64, S100000x64, S100000x64] S100000x192 1
  transposes_S40x192_S192x40_1_0 : S40x192.Transposes [1, 0] S192x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x256_S256x64_S100000x64_1_0_0_1_n_n_wf : DotDims.WF S100000x256 S256x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x192_S192x40_S100000x40_1_0_0_1_n_n_wf : DotDims.WF S100000x192 S192x40 S100000x40 [1] [0] [0] [1] [] []

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x192_S192x40_S100000x40_1_0_0_1_n_n : DotDims S100000x192 S192x40 S100000x40 where
  lhsContracting := [1]
  rhsContracting := [0]
  lhsNonContracting := [0]
  rhsNonContracting := [1]
  lhsBatch := []
  rhsBatch := []
  wf := dot_S100000x192_S192x40_S100000x40_1_0_0_1_n_n_wf

class Facts : Prop extends Facts₀ where

variable [Facts]
-- ==== Proof.KernelRun.lean ====
/-
  The idealized kernel's run with its result NAMED. The program is four stretches: host operations (the casts of
  `x` and of `fc1_w` transposed), the first matmul kernel over 25 row tiles, host operations (the two sparse
  propagations, the casts, the three column slices of `fc_out_w` transposed, the bias as a row), and the second
  kernel over 25 row tiles. The launch over these four segments ends with every buffer that outlives a kernel at the
  contents the fold of the segments gives it (`Gen.W4`); read here at the result buffer and at the eleven arguments.
-/
import proofs.«109678_j43671227466239_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, and in the final memory every buffer that is not a
    kernel's scratch holds what the fold of the four segments leaves there. -/
theorem run_held : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The run with the result buffer named: it ends at the second kernel's output array as its 25 write-backs leave
    it, and the eleven arguments end as launched. -/
theorem run_named : θ_run defs (onTc (τ := τ) (main (F := F))) ⟨m, fun _ => 0, ρ⟩ (fun r => ∀ c : Dev nD,
      r.2.mem ((c.tc : Thread nD τ).loc main_v43) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
      ⟨(h c _ (mem_uc main_v43 (by decide))).trans (W4_arr m ρ c 7),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)
    (run_held m ρ)

end Cert.KernelIdeal.Named

end
-- ==== Proof.LibRowOps.lean ====
import Idealize.ShloMosaic.Lib.Pipeline.Value
import Idealize.ShloMosaic.Lib.ValueIdx
import Idealize.ShloMosaic.Lib.ValueLayout
import Idealize.ShloMosaic.PureOps.Ideal.Laws

/-!
# Matrix products, row sums and keep-dims broadcasts, read at an index

General facts at the ideal float instance, over arrays `[a, b]` of any extents, in the style of the
library's `shapeCast_a_1a_apply` and `broadcastTo_1b_ab_apply`:

* a plain matrix product `[a, k] × [k, b]` — a kernel's `tpu.matmul` into a zero accumulator, the
  host's `dot_general` — read at `(p, q)` is `∑ j, L (p, j) · R (j, q)`;
* a sum over the last axis of an `[a, b]` array into `[a]` — a kernel's `multi_reduction <add>`, the host's
  `reduce add` with its initial value — read at `p` is the sum over `k < b` of the array at `(p, k)`;
* the host's `broadcast_in_dim` in the four keep-dims forms `[b] → [1, b]`, `[1, b] → [a, b]`,
  `[a] → [a, 1]`, `[a, 1] → [a, b]`, and of a scalar to any shape, each read at an index.
-/

noncomputable section

namespace Cert.RowOps

open Idealize.ShloMosaic Idealize.ShloMosaic.ValueIdx

variable {α : Type}

/-! ## The plain matrix product -/

theorem plain_lhs0 (a k b : ℕ) (i : (⟨2, ![a, b]⟩ : Shape).Idx) (q : (DotDims.plain a k b).contr.Idx) :
    ((DotDims.plain a k b).lhsIdx i q 0).val = (i 0).val := by
  unfold DotDims.lhsIdx
  rw [dif_neg (show ¬(0 : Fin 2) ∈ (DotDims.plain a k b).lhsBatch from List.not_mem_nil),
    dif_pos (show (0 : Fin 2) ∈ (DotDims.plain a k b).lhsNonContracting from List.mem_singleton.mpr rfl)]
  rfl
theorem plain_lhs1 (a k b : ℕ) (i : (⟨2, ![a, b]⟩ : Shape).Idx) (q : (DotDims.plain a k b).contr.Idx) :
    ((DotDims.plain a k b).lhsIdx i q 1).val = (q ⟨0, (Nat.one_pos : 0 < 1)⟩).val :=
  (DotDims.plain a k b).lhsIdx_val_of_single rfl i q
theorem plain_rhs0 (a k b : ℕ) (i : (⟨2, ![a, b]⟩ : Shape).Idx) (q : (DotDims.plain a k b).contr.Idx) :
    ((DotDims.plain a k b).rhsIdx i q 0).val = (q ⟨0, (Nat.one_pos : 0 < 1)⟩).val :=
  (DotDims.plain a k b).rhsIdx_val_of_single rfl i q
theorem plain_rhs1 (a k b : ℕ) (i : (⟨2, ![a, b]⟩ : Shape).Idx) (q : (DotDims.plain a k b).contr.Idx) :
    ((DotDims.plain a k b).rhsIdx i q 1).val = (i 1).val := by
  unfold DotDims.rhsIdx
  rw [dif_neg (show ¬(1 : Fin 2) ∈ (DotDims.plain a k b).rhsBatch from List.not_mem_nil),
    dif_pos (show (1 : Fin 2) ∈ (DotDims.plain a k b).rhsNonContracting from List.mem_singleton.mpr rfl)]
  rfl

/-- The sum over a plain product's contraction index, re-indexed by `Fin k`. -/
theorem plain_sum (a k b : ℕ) (L : (⟨2, ![a, k]⟩ : Shape).Idx → EReal) (R : (⟨2, ![k, b]⟩ : Shape).Idx → EReal) (p : Fin a) (q : Fin b) :
    (∑ κ : (DotDims.plain a k b).contr.Idx, L ((DotDims.plain a k b).lhsIdx (ix2 p q) κ) * R ((DotDims.plain a k b).rhsIdx (ix2 p q) κ))
      = ∑ j : Fin k, L (ix2 p j) * R (ix2 j q) := by
  rw [← Equiv.sum_comp (contrEquiv1 (DotDims.plain a k b) k rfl rfl).symm]
  refine Finset.sum_congr rfl fun j _ => ?_
  have hk := contrEquiv1_symm_val (DotDims.plain a k b) k rfl rfl j
  have el : (DotDims.plain a k b).lhsIdx (ix2 p q) ((contrEquiv1 (DotDims.plain a k b) k rfl rfl).symm j) = ix2 p j :=
    funext fun c => Fin.ext (by
      match c with
      | ⟨0, _⟩ => exact plain_lhs0 a k b _ _
      | ⟨1, _⟩ => exact (plain_lhs1 a k b _ _).trans hk)
  have er : (DotDims.plain a k b).rhsIdx (ix2 p q) ((contrEquiv1 (DotDims.plain a k b) k rfl rfl).symm j) = ix2 j q :=
    funext fun c => Fin.ext (by
      match c with
      | ⟨0, _⟩ => exact (plain_rhs0 a k b _ _).trans hk
      | ⟨1, _⟩ => exact plain_rhs1 a k b _ _)
  rw [el, er]

/-- A kernel's matrix product into a zero accumulator, at `(p, q)`. -/
theorem matmul_plain_apply {a k b : ℕ} {φ₁ φ₂ : FTy} (L : FVec Ideal ⟨2, ![a, k]⟩ φ₁) (R : FVec Ideal ⟨2, ![k, b]⟩ φ₂)
    (prec : Option ContractPrecision) (p : Fin a) (q : Fin b) :
    FloatOps.matmul (DotDims.plain a k b) prec L R (constant ⟨2, ![a, b]⟩ .f32 0x00000000#32) (ix2 p q)
      = ∑ j : Fin k, L (ix2 p j) * R (ix2 j q) :=
  (Ideal.matmul_constant_zero_apply _ prec L R (ix2 p q)).trans (plain_sum a k b L R p q)

/-- The host's `dot_general` of the same dimension numbers, at `(p, q)`. -/
theorem dotGeneral_plain_apply {a k b : ℕ} {φ₁ φ₂ : FTy} (L : FVec Ideal ⟨2, ![a, k]⟩ φ₁) (R : FVec Ideal ⟨2, ![k, b]⟩ φ₂)
    (prec : Option ContractPrecision) (sched : HostSchedule) (p : Fin a) (q : Fin b) :
    FloatOps.dotGeneral (DotDims.plain a k b) prec sched L R (ix2 p q) = ∑ j : Fin k, L (ix2 p j) * R (ix2 j q) :=
  (Ideal.dotGeneral_apply _ prec sched L R (ix2 p q)).trans (plain_sum a k b L R p q)

/-! ## Row sums -/

/-- A kernel's sum over the last axis, at row `p`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun d => Fin.ext (by
      match d with
      | ⟨0, _⟩ => rfl
      | ⟨1, _⟩ => rfl)))

/-- The host's sum over the last axis, at row `p`: the initial value plus the row's sum. -/
theorem hostRowSum_apply {a b : ℕ} {φ : FTy} (x : FVec Ideal ⟨2, ![a, b]⟩ φ) (init : (⟨0, ![]⟩ : Shape).Idx → Ideal φ)
    (h' : (⟨2, ![a, b]⟩ : Shape).ReducesTo [1] ⟨1, ![a]⟩) (hu : 0 < (⟨0, ![]⟩ : Shape).numel)
    (h : (⟨2, ![a, b]⟩ : Shape).Reduces [1] ⟨1, ![a]⟩) (p : Fin a) :
    Host.reduceAdd x init h' hu (ix1 p) = init ix0 + ∑ k : Fin b, x (ix2 p k) := by
  simp only [Host.reduceAdd, Ideal.hostReduceAdd_def]
  rw [Ideal.hostReduceAdd_single h' h, eq_ix0 (Shape.Idx.first hu)]
  refine congrArg (_ + ·) (Finset.sum_congr rfl fun k _ => ?_)
  exact congrArg x (funext fun d => Fin.ext (by
    match d with
    | ⟨0, _⟩ => rfl
    | ⟨1, _⟩ => rfl))

/-! ## The host's keep-dims broadcasts -/

/-- `[b] → [1, b]` (dims = [1]), at `(u, q)`. -/
theorem bcast_b_1b_apply {b : ℕ} (x : (⟨1, ![b]⟩ : Shape).Idx → α) (h : (⟨1, ![b]⟩ : Shape).BroadcastsInDim ⟨2, ![1, b]⟩ ![1])
    (u : Fin 1) (q : Fin b) : broadcastInDim ⟨2, ![1, b]⟩ ![1] h x (ix2 u q) = x (ix1 q) :=
  broadcastInDim_apply _ h x (ix2 u q) (ix1 q) fun c => by
    match c with
    | ⟨0, _⟩ =>
      show q.val = if b = 1 then 0 else q.val
      split
      · have := q.isLt; omega
      · rfl

/-- `[1, b] → [a, b]` (dims = [0, 1]), at `(p, q)`. -/
theorem bcast_1b_ab_apply {a b : ℕ} (x : (⟨2, ![1, b]⟩ : Shape).Idx → α) (h : (⟨2, ![1, b]⟩ : Shape).BroadcastsInDim ⟨2, ![a, b]⟩ ![0, 1])
    (p : Fin a) (q : Fin b) : broadcastInDim ⟨2, ![a, b]⟩ ![0, 1] h x (ix2 p q) = x (ix2 (0 : Fin 1) q) :=
  broadcastInDim_apply _ h x (ix2 p q) (ix2 (0 : Fin 1) q) fun c => by
    match c with
    | ⟨0, _⟩ => show 0 = if (1 : ℕ) = 1 then 0 else p.val; rw [if_pos rfl]
    | ⟨1, _⟩ =>
      show q.val = if b = 1 then 0 else q.val
      split
      · have := q.isLt; omega
      · rfl

/-- `[a] → [a, 1]` (dims = [0]), at `(p, u)`. -/
theorem bcast_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x (ix2 p u) (ix1 p) fun c => by
    match c with
    | ⟨0, _⟩ =>
      show p.val = if a = 1 then 0 else p.val
      split
      · have := p.isLt; omega
      · rfl

/-- `[a, 1] → [a, b]` (dims = [0, 1]), at `(p, q)`. -/
theorem bcast_a1_ab_apply {a b : ℕ} (x : (⟨2, ![a, 1]⟩ : Shape).Idx → α) (h : (⟨2, ![a, 1]⟩ : Shape).BroadcastsInDim ⟨2, ![a, b]⟩ ![0, 1])
    (p : Fin a) (q : Fin b) : broadcastInDim ⟨2, ![a, b]⟩ ![0, 1] h x (ix2 p q) = x (ix2 p (0 : Fin 1)) :=
  broadcastInDim_apply _ h x (ix2 p q) (ix2 p (0 : Fin 1)) fun c => by
    match c with
    | ⟨0, _⟩ =>
      show p.val = if a = 1 then 0 else p.val
      split
      · have := p.isLt; omega
      · rfl
    | ⟨1, _⟩ => show 0 = if (1 : ℕ) = 1 then 0 else q.val; rw [if_pos rfl]

/-- A scalar broadcast to any shape, at any index. -/
theorem bcast_scalar_apply {t : Shape} (x : (⟨0, ![]⟩ : Shape).Idx → α) (h : (⟨0, ![]⟩ : Shape).BroadcastsInDim t ![])
    (j : t.Idx) : broadcastInDim t ![] h x j = x ix0 :=
  broadcastInDim_apply _ h x j ix0 fun c => c.elim0

end Cert.RowOps

end
-- ==== Proof.Layers.lean ====
/-
  The two dense layers of the network as whole-array functions over the extended reals, and the one law the
  certificate rests on.

  * The first layer: row `n` of `x` against column `c` of the transposed weight,
    `∑ j < 256, x[n, j] · wt[j, c]`. A kernel computing it on row tiles after casting both operands to a
    narrower float format, and the host's `dot_general` of the uncast operands, are this same sum: at exact
    arithmetic a change of format is the identity.
  * The output layer. The reference joins `h0 | h1 | h2` into one `[n, 192]` matrix and multiplies by the
    transposed `[40, 192]` weight, `∑ k < 192, h[n, k] · W[o, k] + b[o]`. The kernel never forms the joined matrix: it
    multiplies each `[n, 64]` band by its own 64 columns of the weight and adds the three products,
    `((∑ k < 64, h0[n, k] · W[o, k] + ∑ k < 64, h1[n, k] · W[o, 64 + k]) + ∑ k < 64, h2[n, k] · W[o, 128 + k]) + b[o]`.
    The two agree because a sum over 192 consecutive indices is the sum of its three bands of 64 — associativity and
    commutativity of addition only, which hold on all of the extended reals: no finiteness of any input is used.
-/
import proofs.«109678_j43671227466239_1_alg».proof.Proof.LibRowOps
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

noncomputable section

namespace Cert.Layers

open Idealize.ShloMosaic Idealize.ShloMosaic.ValueIdx

/-! ## Three bands of 64 columns -/

/-- Column `k` of the first, second and third band of a 192-column matrix. -/
abbrev band0 (k : Fin 64) : Fin 192 := ⟨k.val, by omega⟩
abbrev band1 (k : Fin 64) : Fin 192 := ⟨64 + k.val, by omega⟩
abbrev band2 (k : Fin 64) : Fin 192 := ⟨128 + k.val, by omega⟩

/-- A sum over 192 consecutive indices is the sum of its three bands of 64. -/
theorem sum_bands {M : Type} [AddCommMonoid M] (f : Fin 192 → M) :
    ∑ k, f k = (∑ k : Fin 64, f (band0 k) + ∑ k : Fin 64, f (band1 k)) + ∑ k : Fin 64, f (band2 k) := by
  have h1 : ∑ k : Fin (128 + 64), f k = _ := Fin.sum_univ_add (a := 128) (b := 64) f
  have h2 : ∑ k : Fin (64 + 64), f (Fin.castAdd 64 k) = _ := Fin.sum_univ_add (a := 64) (b := 64) fun k => f (Fin.castAdd 64 k)
  exact h1.trans (congrArg (· + _) h2)

/-! ## The first layer -/

/-- `x · wt` of a `[100000, 256]` and a `[256, 64]` matrix, element by element. -/
def dense1 {φ₁ φ₂ : FTy} (X : FVec Ideal ⟨2, ![100000, 256]⟩ φ₁) (Wt : FVec Ideal ⟨2, ![256, 64]⟩ φ₂) :
    FVec Ideal ⟨2, ![100000, 64]⟩ .f32 :=
  fun i => ∑ j : Fin 256, X (ix2 (i 0) j) * Wt (ix2 j (i 1))

/-- The host's `dot_general` of the two matrices is that product. -/
theorem dotGeneral_eq_dense1 (x : FVec Ideal ⟨2, ![100000, 256]⟩ .f32) (wt : FVec Ideal ⟨2, ![256, 64]⟩ .f32) :
    Host.dotGeneral (F := Ideal) (DotDims.plain 100000 256 64) none x wt = dense1 x wt := by
  funext i
  obtain ⟨n, c, rfl⟩ : ∃ (n : Fin 100000) (c : Fin 64), i = ix2 n c := ⟨i 0, i 1, eq_ix2 i⟩
  simp only [Host.dotGeneral]
  exact Cert.RowOps.dotGeneral_plain_apply x wt none _ n c

/-! ## The output layer -/

/-- The output layer as the kernel arranges it: three products of 64 terms, then the bias. -/
def outBands {φ : FTy} (h0 h1 h2 : FVec Ideal ⟨2, ![100000, 64]⟩ φ) (W : FVec Ideal ⟨2, ![40, 192]⟩ .f32)
    (b : FVec Ideal ⟨1, ![40]⟩ .f32) : FVec Ideal ⟨2, ![100000, 40]⟩ .f32 :=
  fun i => ((∑ k : Fin 64, h0 (ix2 (i 0) k) * W (ix2 (i 1) (band0 k)) + ∑ k : Fin 64, h1 (ix2 (i 0) k) * W (ix2 (i 1) (band1 k)))
      + ∑ k : Fin 64, h2 (ix2 (i 0) k) * W (ix2 (i 1) (band2 k))) + b (ix1 (i 1))

/-- The same three products as a kernel computes them on matrices already cut and transposed: the three row blocks
    `A0 A1 A2` against three `[64, 40]` factors, plus the bias carried as one row. -/
def outTiles {φ ψ : FTy} (A0 A1 A2 : FVec Ideal ⟨2, ![100000, 64]⟩ φ) (B0 B1 B2 : FVec Ideal ⟨2, ![64, 40]⟩ ψ)
    (bias : FVec Ideal ⟨2, ![1, 40]⟩ .f32) : FVec Ideal ⟨2, ![100000, 40]⟩ .f32 :=
  fun i => ((∑ k : Fin 64, A0 (ix2 (i 0) k) * B0 (ix2 k (i 1)) + ∑ k : Fin 64, A1 (ix2 (i 0) k) * B1 (ix2 k (i 1)))
      + ∑ k : Fin 64, A2 (ix2 (i 0) k) * B2 (ix2 k (i 1))) + bias (ix2 (0 : Fin 1) (i 1))

/-- Column band `o` of the weight, transposed and cast, read at `(k, c)`, is the weight at `(c, o + k)`. -/
theorem band_apply (off : ℕ) (W : FVec Ideal ⟨2, ![40, 192]⟩ .f32) (hlt : FTy.bits .bf16 < FTy.bits .f32)
    (hs : (⟨2, ![40, 192]⟩ : Shape).Slices ![0, off] ⟨2, ![40, 64]⟩)
    (ht : (⟨2, ![40, 64]⟩ : Shape).Transposes [1, 0] ⟨2, ![64, 40]⟩) (k : Fin 64) (c : Fin 40) (kk : Fin 192)
    (hk : kk.val = off + k.val) :
    (truncf .bf16 (transpose ⟨2, ![64, 40]⟩ [1, 0] (extractStridedSlice ⟨2, ![40, 64]⟩ ![0, off] W hs) ht) hlt : FVec Ideal ⟨2, ![64, 40]⟩ .bf16)
        (ix2 k c) = W (ix2 c kk) := by
  show transpose ⟨2, ![64, 40]⟩ [1, 0] (extractStridedSlice ⟨2, ![40, 64]⟩ ![0, off] W hs) ht (ix2 k c) = _
  exact (transpose_ix2_apply (extractStridedSlice ⟨2, ![40, 64]⟩ ![0, off] W hs) ht k c).trans
    (slice2_axis1_apply off W hs c k kk hk)

/-- With the three factors the three column bands of the weight, transposed, and the bias row the bias vector: the
    kernel's arrangement of the output layer. The casts to a narrower format are the identity at exact arithmetic. -/
theorem outTiles_eq_outBands (h0 h1 h2 : FVec Ideal ⟨2, ![100000, 64]⟩ .f32) (W : FVec Ideal ⟨2, ![40, 192]⟩ .f32)
    (b : FVec Ideal ⟨1, ![40]⟩ .f32) (hlt : FTy.bits .bf16 < FTy.bits .f32)
    (hs0 : (⟨2, ![40, 192]⟩ : Shape).Slices ![0, 0] ⟨2, ![40, 64]⟩)
    (hs1 : (⟨2, ![40, 192]⟩ : Shape).Slices ![0, 64] ⟨2, ![40, 64]⟩)
    (hs2 : (⟨2, ![40, 192]⟩ : Shape).Slices ![0, 128] ⟨2, ![40, 64]⟩)
    (ht : (⟨2, ![40, 64]⟩ : Shape).Transposes [1, 0] ⟨2, ![64, 40]⟩)
    (hc : (⟨1, ![40]⟩ : Shape).ShapeCasts ⟨2, ![1, 40]⟩) :
    outTiles (truncf .bf16 h0 hlt) (truncf .bf16 h1 hlt) (truncf .bf16 h2 hlt)
        (truncf .bf16 (transpose ⟨2, ![64, 40]⟩ [1, 0] (extractStridedSlice ⟨2, ![40, 64]⟩ ![0, 0] W hs0) ht) hlt)
        (truncf .bf16 (transpose ⟨2, ![64, 40]⟩ [1, 0] (extractStridedSlice ⟨2, ![40, 64]⟩ ![0, 64] W hs1) ht) hlt)
        (truncf .bf16 (transpose ⟨2, ![64, 40]⟩ [1, 0] (extractStridedSlice ⟨2, ![40, 64]⟩ ![0, 128] W hs2) ht) hlt)
        (shapeCast ⟨2, ![1, 40]⟩ b hc)
      = outBands h0 h1 h2 W b := by
  funext i
  obtain ⟨n, c, rfl⟩ : ∃ (n : Fin 100000) (c : Fin 40), i = ix2 n c := ⟨i 0, i 1, eq_ix2 i⟩
  show ((∑ k : Fin 64, h0 (ix2 n k) * _ + ∑ k : Fin 64, h1 (ix2 n k) * _) + ∑ k : Fin 64, h2 (ix2 n k) * _) + _
    = ((∑ k : Fin 64, h0 (ix2 n k) * W (ix2 c (band0 k)) + ∑ k : Fin 64, h1 (ix2 n k) * W (ix2 c (band1 k)))
        + ∑ k : Fin 64, h2 (ix2 n k) * W (ix2 c (band2 k))) + b (ix1 c)
  refine congrArg₂ (· + ·) (congrArg₂ (· + ·) (congrArg₂ (· + ·) ?_ ?_) ?_) (shapeCast_a_1a_apply b hc 0 c)
  · exact Finset.sum_congr rfl fun k _ => congrArg (h0 (ix2 n k) * ·) (band_apply 0 W hlt hs0 ht k c (band0 k) (Nat.zero_add _).symm)
  · exact Finset.sum_congr rfl fun k _ => congrArg (h1 (ix2 n k) * ·) (band_apply 64 W hlt hs1 ht k c (band1 k) rfl)
  · exact Finset.sum_congr rfl fun k _ => congrArg (h2 (ix2 n k) * ·) (band_apply 128 W hlt hs2 ht k c (band2 k) rfl)

/-! ## The reference's arrangement: one product over the joined matrix -/

/-- The joined matrix `h0 | h1 | h2` read in band `q` (columns `64 q + k`) is the `q`-th matrix at column `k`. -/
theorem joined_apply (h0 h1 h2 : FVec Ideal ⟨2, ![100000, 64]⟩ .f32)
    (hcat : Shape.Concatenates [(⟨2, ![100000, 64]⟩ : Shape), ⟨2, ![100000, 64]⟩, ⟨2, ![100000, 64]⟩] ⟨2, ![100000, 192]⟩ 1)
    (n : Fin 100000) (k : Fin 64) :
    concatenate ⟨2, ![100000, 192]⟩ 1 [⟨⟨2, ![100000, 64]⟩, h0⟩, ⟨⟨2, ![100000, 64]⟩, h1⟩, ⟨⟨2, ![100000, 64]⟩, h2⟩] hcat (ix2 n (band0 k)) = h0 (ix2 n k)
    ∧ concatenate ⟨2, ![100000, 192]⟩ 1 [⟨⟨2, ![100000, 64]⟩, h0⟩, ⟨⟨2, ![100000, 64]⟩, h1⟩, ⟨⟨2, ![100000, 64]⟩, h2⟩] hcat (ix2 n (band1 k)) = h1 (ix2 n k)
    ∧ concatenate ⟨2, ![100000, 192]⟩ 1 [⟨⟨2, ![100000, 64]⟩, h0⟩, ⟨⟨2, ![100000, 64]⟩, h1⟩, ⟨⟨2, ![100000, 64]⟩, h2⟩] hcat (ix2 n (band2 k)) = h2 (ix2 n k) := by
  refine ⟨?_, ?_, ?_⟩
  · refine concatenate_apply_piece (t := ⟨2, ![100000, 192]⟩) (1 : Fin 2) [⟨⟨2, ![100000, 64]⟩, h0⟩, ⟨⟨2, ![100000, 64]⟩, h1⟩, ⟨⟨2, ![100000, 64]⟩, h2⟩] hcat _ 0 (Nat.zero_lt_succ _) ⟨2, ![100000, 64]⟩ h0 rfl rfl 0 rfl (ix2 n k) (fun b hb => ?_) (Nat.zero_add _)
    match b with
    | ⟨0, _⟩ => rfl
    | ⟨1, _⟩ => exact absurd rfl hb
  · refine concatenate_apply_piece (t := ⟨2, ![100000, 192]⟩) (1 : Fin 2) [⟨⟨2, ![100000, 64]⟩, h0⟩, ⟨⟨2, ![100000, 64]⟩, h1⟩, ⟨⟨2, ![100000, 64]⟩, h2⟩] hcat _ 1 (Nat.succ_lt_succ (Nat.zero_lt_succ _)) ⟨2, ![100000, 64]⟩ h1 rfl rfl 64 rfl (ix2 n k) (fun b hb => ?_) rfl
    match b with
    | ⟨0, _⟩ => rfl
    | ⟨1, _⟩ => exact absurd rfl hb
  · refine concatenate_apply_piece (t := ⟨2, ![100000, 192]⟩) (1 : Fin 2) [⟨⟨2, ![100000, 64]⟩, h0⟩, ⟨⟨2, ![100000, 64]⟩, h1⟩, ⟨⟨2, ![100000, 64]⟩, h2⟩] hcat _ 2 (Nat.succ_lt_succ (Nat.succ_lt_succ (Nat.zero_lt_succ _))) ⟨2, ![100000, 64]⟩ h2 rfl rfl 128 rfl (ix2 n k) (fun b hb => ?_) rfl
    match b with
    | ⟨0, _⟩ => rfl
    | ⟨1, _⟩ => exact absurd rfl hb

/-- The reference's output layer — the joined matrix times the transposed weight, plus the bias broadcast over the
    rows — is the three-band form: the sum over 192 columns splits into its three bands. -/
theorem joined_eq_outBands (h0 h1 h2 : FVec Ideal ⟨2, ![100000, 64]⟩ .f32) (W : FVec Ideal ⟨2, ![40, 192]⟩ .f32)
    (b : FVec Ideal ⟨1, ![40]⟩ .f32)
    (hcat : Shape.Concatenates [(⟨2, ![100000, 64]⟩ : Shape), ⟨2, ![100000, 64]⟩, ⟨2, ![100000, 64]⟩] ⟨2, ![100000, 192]⟩ 1)
    (ht : (⟨2, ![40, 192]⟩ : Shape).Transposes [1, 0] ⟨2, ![192, 40]⟩)
    (hb1 : (⟨1, ![40]⟩ : Shape).BroadcastsInDim ⟨2, ![1, 40]⟩ ![1])
    (hb2 : (⟨2, ![1, 40]⟩ : Shape).BroadcastsInDim ⟨2, ![100000, 40]⟩ ![0, 1]) :
    addf (Host.dotGeneral (F := Ideal) (DotDims.plain 100000 192 40) none
          (concatenate ⟨2, ![100000, 192]⟩ 1 [⟨⟨2, ![100000, 64]⟩, h0⟩, ⟨⟨2, ![100000, 64]⟩, h1⟩, ⟨⟨2, ![100000, 64]⟩, h2⟩] hcat)
          (transpose ⟨2, ![192, 40]⟩ [1, 0] W ht))
        (broadcastInDim ⟨2, ![100000, 40]⟩ ![0, 1] hb2 (broadcastInDim ⟨2, ![1, 40]⟩ ![1] hb1 b))
      = outBands h0 h1 h2 W b := by
  funext i
  obtain ⟨n, c, rfl⟩ : ∃ (n : Fin 100000) (c : Fin 40), i = ix2 n c := ⟨i 0, i 1, eq_ix2 i⟩
  rw [addf_apply]
  simp only [Host.dotGeneral]
  rw [Cert.RowOps.dotGeneral_plain_apply _ _ none _ n c, sum_bands,
    Cert.RowOps.bcast_1b_ab_apply _ hb2 n c, Cert.RowOps.bcast_b_1b_apply b hb1 0 c]
  refine congrArg (· + b (ix1 c)) (congrArg₂ (· + ·) (congrArg₂ (· + ·) ?_ ?_) ?_)
  · exact Finset.sum_congr rfl fun k _ => congrArg₂ (· * ·) (joined_apply h0 h1 h2 hcat n k).1 (transpose_ix2_apply W ht (band0 k) c)
  · exact Finset.sum_congr rfl fun k _ => congrArg₂ (· * ·) (joined_apply h0 h1 h2 hcat n k).2.1 (transpose_ix2_apply W ht (band1 k) c)
  · exact Finset.sum_congr rfl fun k _ => congrArg₂ (· * ·) (joined_apply h0 h1 h2 hcat n k).2.2 (transpose_ix2_apply W ht (band2 k) c)

/-- The first layer on operands cast to a narrower format is the first layer: at exact arithmetic the cast is the
    identity. -/
theorem dense1_cast (x : FVec Ideal ⟨2, ![100000, 256]⟩ .f32) (wt : FVec Ideal ⟨2, ![256, 64]⟩ .f32)
    (hlt : FTy.bits .bf16 < FTy.bits .f32) :
    dense1 (truncf .bf16 x hlt) (truncf .bf16 wt hlt) = dense1 x wt := rfl

end Cert.Layers

end
-- ==== Proof.Tiles.lean ====
/-
  The two kernels' output arrays as whole-array functions of the arrays each kernel finds when it is entered.

  Each kernel runs over 25 grid points; point `t` stages rows `4000 t … 4000 t + 3999` of its row-tiled operands (the
  untiled ones — a weight, the bias row — whole at every point), computes one `[4000, ·]` tile, and writes it back to the
  same rows of the output. A tile's entry `(p, q)` depends only on row `p` of the row tiles, so what point `t` writes is
  the restriction to its rows of ONE function of the whole arrays: the first layer (`Cert.Layers.dense1`) for the
  first kernel, the three-product form of the output layer (`Cert.Layers.outTiles`) for the second. The 25 row blocks
  cover the 100000 rows (row `r` is in block `r / 4000`), so each output array ends as that function.
-/
import proofs.«109678_j43671227466239_1_alg».proof.Proof.Gen.KernelIdeal.Frame
import proofs.«109678_j43671227466239_1_alg».proof.Proof.Layers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Tiles

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Layers

variable (V : (c : Dev nD) → (b : Ref sig .tc) → Buf (Elt Ideal) ((c : Thread nD τ).loc b))

theorem hz : (![0, 0] : Fin 2 → Nat) = fun _ => 0 := funext fun a => by fin_cases a <;> rfl

/-! ## The first kernel: one tile of `x · wt` -/

/-- Entry `(p, q)` of the tile the body stores: row `p` of the staged rows of `x` against column `q` of the weight. -/
theorem tile1_apply (x0 : FVec Ideal S4000x256 .bf16) (x1 : FVec Ideal S256x64 .bf16) (p : Fin 4000) (q : Fin 64) :
    k0_pay1 (F := Ideal) x0 x1 (ix2 p q) = ∑ k : Fin 256, x0 (ix2 p k) * x1 (ix2 k q) := by
  unfold k0_pay1
  rw [shapeCast_self, shapeCast_self]
  exact Cert.RowOps.matmul_plain_apply x0 x1 none p q

/-- A tile whose staged rows are rows of `X` (row `p` of the tile being row `i 0` of `X`) and whose staged weight is
    `Wt` holds, at `(p, q)`, the first layer of `X` and `Wt` at `i`. -/
theorem tile1_eq (X : FVec Ideal S100000x256 .bf16) (Wt : FVec Ideal S256x64 .bf16) (x0 : FVec Ideal S4000x256 .bf16)
    (x1 : FVec Ideal S256x64 .bf16) (i : S100000x64.Idx) (p : Fin 4000) (q : Fin 64)
    (hx0 : ∀ k : Fin 256, x0 (ix2 p k) = X (ix2 (i 0) k)) (hx1 : ∀ k : Fin 256, x1 (ix2 k q) = Wt (ix2 k (i 1))) :
    k0_pay1 (F := Ideal) x0 x1 (ix2 p q) = dense1 X Wt i :=
  (tile1_apply x0 x1 p q).trans (Finset.sum_congr rfl fun k _ => by rw [hx0 k, hx1 k])

/-- The index maps over the grid: the row-tiled windows sit at block row `t`, the weight at block `(0, 0)`. -/
theorem idx1 : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is rows `4000 t …` of the first layer of the arrays the kernel was entered with. -/
theorem flushed1 (c : Dev nD) (t : Fin cfg0.N) :
    (dat0 V c).flushed 2 t = ((cfg0.win 2).blk t).view.read (Elt Ideal)
      (dense1 (φ₁ := .bf16) (φ₂ := .bf16) (V c main_v0) (V c main_v2)) := by
  show (cfg0.win 2).cut (grid0.coords t) ((dat0 V c).after 2 t) = _
  rw [after0_2]
  unfold out0_2
  rw [View.canon_unit_zero hz]
  simp only [View.ld_unit_zero (S := S4000x256) hz, View.ld_unit_zero (S := S256x64) hz]
  obtain ⟨e00, e01, e10, e11, e20, e21⟩ := idx1 t
  funext j
  refine (congrArg (k0_pay1 (F := Ideal) _ _) (eq_ix2 (n0 := 4000) (n1 := 64) j)).trans
    (tile1_eq (V c main_v0) (V c main_v2) _ _ (((cfg0.win 2).blk t).view.emb j) (j 0) (j 1) (fun k => ?_) (fun k => ?_))
  · show V c main_v0 (((cfg0.win 0).blk t).view.emb (ix2 (j 0) k)) = _
    refine congrArg (V c main_v0) (funext fun a => Fin.ext ?_)
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 256 + 1 * k.val = k.val; omega
  · show V c main_v2 (((cfg0.win 1).blk t).view.emb (ix2 k (j 1))) = _
    refine congrArg (V c main_v2) (funext fun a => Fin.ext ?_)
    match a with
    | ⟨0, _⟩ => show win0_1.index t (0 : Fin 2) * 256 + 1 * k.val = k.val; omega
    | ⟨1, _⟩ => show win0_1.index t (1 : Fin 2) * 64 + 1 * (j 1).val = win0_2.index t (1 : Fin 2) * 64 + 1 * (j 1).val; omega

/-- An index of the output is in point `t`'s block iff its row is among the block's 4000 rows. -/
theorem mem_blk1 (t : Fin cfg0.N) (i : S100000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v3).slice (win0_2.rect t)).set ↔ _
  rw [View.set_slice_whole, Rect.mem_set_unit]
  exact Iff.rfl

/-- Every row is in the block of the point `row / 4000`. -/
theorem cover1 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 25 := N_0
  let t : Fin cfg0.N := ⟨(i 0).val / 4000, by rw [hN]; omega⟩
  obtain ⟨e00, e01, e10, e11, e20, e21⟩ := idx1 t
  have e20' : win0_2.index t (0 : Fin 2) = (i 0).val / 4000 := e20
  refine ⟨t, flush0_2 t, ?_⟩
  rw [mem_blk1]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 64 ≤ (i 1).val ∧ (i 1).val < win0_2.index t (1 : Fin 2) * 64 + 64; omega

/-- The first kernel's output array after its 25 points: the first layer of the arrays it was entered with. -/
theorem array1 (c : Dev nD) : (dat0 V c).arrAt 2 cfg0.N = dense1 (φ₁ := .bf16) (φ₂ := .bf16) (V c main_v0) (V c main_v2) :=
  (dat0 V c).arrAt_eq_of_cover 2 (dense1 (φ₁ := .bf16) (φ₂ := .bf16) (V c main_v0) (V c main_v2)) (fun t _ => flushed1 V c t) cover1

/-! ## The second kernel: one tile of the output layer -/

/-- Entry `(p, q)` of the tile the body stores: the three products of row `p` of the staged rows of `h0`, `h1`, `h2`
    with column `q` of their factors, added in that order, plus the bias row at `q`. -/
theorem tile2_apply (x0 x1 x2 : FVec Ideal S4000x64 .bf16) (x3 x4 x5 : FVec Ideal S64x40 .bf16) (x6 : FVec Ideal S1x40 .f32)
    (p : Fin 4000) (q : Fin 40) :
    k1_pay1 (F := Ideal) x0 x3 x1 x4 x2 x5 x6 (ix2 p q)
      = ((∑ k : Fin 64, x0 (ix2 p k) * x3 (ix2 k q) + ∑ k : Fin 64, x1 (ix2 p k) * x4 (ix2 k q))
          + ∑ k : Fin 64, x2 (ix2 p k) * x5 (ix2 k q)) + x6 (ix2 (0 : Fin 1) q) := by
  unfold k1_pay1
  simp only [shapeCast_self]
  exact congrArg₂ (· + ·) (congrArg₂ (· + ·) (congrArg₂ (· + ·) (Cert.RowOps.matmul_plain_apply x0 x3 none p q)
    (Cert.RowOps.matmul_plain_apply x1 x4 none p q)) (Cert.RowOps.matmul_plain_apply x2 x5 none p q))
    (broadcastTo_1b_ab_apply x6 broadcasts_S1x40_S4000x40 p q)

/-- A tile whose staged rows are rows of `A0 A1 A2` (row `p` of the tile being row `i 0` of each) and whose other
    staged operands are the whole factors and bias row holds, at `(p, q)`, the three-product form at `i`. -/
theorem tile2_eq (A0 A1 A2 : FVec Ideal S100000x64 .bf16) (B0 B1 B2 : FVec Ideal S64x40 .bf16) (bias : FVec Ideal S1x40 .f32)
    (x0 x1 x2 : FVec Ideal S4000x64 .bf16) (x3 x4 x5 : FVec Ideal S64x40 .bf16) (x6 : FVec Ideal S1x40 .f32)
    (i : S100000x40.Idx) (p : Fin 4000) (q : Fin 40)
    (h0 : ∀ k : Fin 64, x0 (ix2 p k) = A0 (ix2 (i 0) k)) (h1 : ∀ k : Fin 64, x1 (ix2 p k) = A1 (ix2 (i 0) k))
    (h2 : ∀ k : Fin 64, x2 (ix2 p k) = A2 (ix2 (i 0) k))
    (h3 : ∀ k : Fin 64, x3 (ix2 k q) = B0 (ix2 k (i 1))) (h4 : ∀ k : Fin 64, x4 (ix2 k q) = B1 (ix2 k (i 1)))
    (h5 : ∀ k : Fin 64, x5 (ix2 k q) = B2 (ix2 k (i 1))) (h6 : x6 (ix2 (0 : Fin 1) q) = bias (ix2 (0 : Fin 1) (i 1))) :
    k1_pay1 (F := Ideal) x0 x3 x1 x4 x2 x5 x6 (ix2 p q) = outTiles A0 A1 A2 B0 B1 B2 bias i :=
  (tile2_apply x0 x1 x2 x3 x4 x5 x6 p q).trans (congrArg₂ (· + ·) (congrArg₂ (· + ·) (congrArg₂ (· + ·)
    (Finset.sum_congr rfl fun k _ => by rw [h0 k, h3 k]) (Finset.sum_congr rfl fun k _ => by rw [h1 k, h4 k]))
    (Finset.sum_congr rfl fun k _ => by rw [h2 k, h5 k])) h6)

/-- The index maps over the grid: the row-tiled windows sit at block row `t`, the factors and the bias at block `(0, 0)`. -/
theorem idx2 : ∀ t : Fin cfg1.N, win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_2.index t (0 : Fin 2) = win1_7.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- What point `t` writes back is rows `4000 t …` of the three-product form of the arrays the kernel was entered with. -/
theorem flushed2 (c : Dev nD) (t : Fin cfg1.N) :
    (dat1 V c).flushed 7 t = ((cfg1.win 7).blk t).view.read (Elt Ideal)
      (outTiles (φ := .bf16) (ψ := .bf16) (V c main_v30) (V c main_v31) (V c main_v32) (V c main_v35) (V c main_v38) (V c main_v41) (V c main_v42)) := by
  show (cfg1.win 7).cut (grid1.coords t) ((dat1 V c).after 7 t) = _
  rw [after1_7]
  unfold out1_7
  rw [View.canon_unit_zero hz]
  simp only [View.ld_unit_zero (S := S4000x64) hz, View.ld_unit_zero (S := S64x40) hz, View.ld_unit_zero (S := S1x40) hz]
  obtain ⟨a00, a01, a10, a11, a20, a21, b00, b01, b10, b11, b20, b21, s0, s1, o0, o1⟩ := idx2 t
  funext j
  refine (congrArg (k1_pay1 (F := Ideal) _ _ _ _ _ _ _) (eq_ix2 (n0 := 4000) (n1 := 40) j)).trans
    (tile2_eq (V c main_v30) (V c main_v31) (V c main_v32) (V c main_v35) (V c main_v38) (V c main_v41) (V c main_v42)
      _ _ _ _ _ _ _ (((cfg1.win 7).blk t).view.emb j) (j 0) (j 1)
      (fun k => ?_) (fun k => ?_) (fun k => ?_) (fun k => ?_) (fun k => ?_) (fun k => ?_) ?_)
  · show V c main_v30 (((cfg1.win 0).blk t).view.emb (ix2 (j 0) k)) = _
    refine congrArg (V c main_v30) (funext fun a => Fin.ext ?_)
    match a with
    | ⟨0, _⟩ => show win1_0.index t (0 : Fin 2) * 4000 + 1 * (j 0).val = win1_7.index t (0 : Fin 2) * 4000 + 1 * (j 0).val; omega
    | ⟨1, _⟩ => show win1_0.index t (1 : Fin 2) * 64 + 1 * k.val = k.val; omega
  · show V c main_v31 (((cfg1.win 1).blk t).view.emb (ix2 (j 0) k)) = _
    refine congrArg (V c main_v31) (funext fun a => Fin.ext ?_)
    match a with
    | ⟨0, _⟩ => show win1_1.index t (0 : Fin 2) * 4000 + 1 * (j 0).val = win1_7.index t (0 : Fin 2) * 4000 + 1 * (j 0).val; omega
    | ⟨1, _⟩ => show win1_1.index t (1 : Fin 2) * 64 + 1 * k.val = k.val; omega
  · show V c main_v32 (((cfg1.win 2).blk t).view.emb (ix2 (j 0) k)) = _
    refine congrArg (V c main_v32) (funext fun a => Fin.ext ?_)
    match a with
    | ⟨0, _⟩ => show win1_2.index t (0 : Fin 2) * 4000 + 1 * (j 0).val = win1_7.index t (0 : Fin 2) * 4000 + 1 * (j 0).val; omega
    | ⟨1, _⟩ => show win1_2.index t (1 : Fin 2) * 64 + 1 * k.val = k.val; omega
  · show V c main_v35 (((cfg1.win 3).blk t).view.emb (ix2 k (j 1))) = _
    refine congrArg (V c main_v35) (funext fun a => Fin.ext ?_)
    match a with
    | ⟨0, _⟩ => show win1_3.index t (0 : Fin 2) * 64 + 1 * k.val = k.val; omega
    | ⟨1, _⟩ => show win1_3.index t (1 : Fin 2) * 40 + 1 * (j 1).val = win1_7.index t (1 : Fin 2) * 40 + 1 * (j 1).val; omega
  · show V c main_v38 (((cfg1.win 4).blk t).view.emb (ix2 k (j 1))) = _
    refine congrArg (V c main_v38) (funext fun a => Fin.ext ?_)
    match a with
    | ⟨0, _⟩ => show win1_4.index t (0 : Fin 2) * 64 + 1 * k.val = k.val; omega
    | ⟨1, _⟩ => show win1_4.index t (1 : Fin 2) * 40 + 1 * (j 1).val = win1_7.index t (1 : Fin 2) * 40 + 1 * (j 1).val; omega
  · show V c main_v41 (((cfg1.win 5).blk t).view.emb (ix2 k (j 1))) = _
    refine congrArg (V c main_v41) (funext fun a => Fin.ext ?_)
    match a with
    | ⟨0, _⟩ => show win1_5.index t (0 : Fin 2) * 64 + 1 * k.val = k.val; omega
    | ⟨1, _⟩ => show win1_5.index t (1 : Fin 2) * 40 + 1 * (j 1).val = win1_7.index t (1 : Fin 2) * 40 + 1 * (j 1).val; omega
  · show V c main_v42 (((cfg1.win 6).blk t).view.emb (ix2 (0 : Fin 1) (j 1))) = _
    refine congrArg (V c main_v42) (funext fun a => Fin.ext ?_)
    match a with
    | ⟨0, _⟩ => show win1_6.index t (0 : Fin 2) * 1 + 1 * 0 = 0; omega
    | ⟨1, _⟩ => show win1_6.index t (1 : Fin 2) * 40 + 1 * (j 1).val = win1_7.index t (1 : Fin 2) * 40 + 1 * (j 1).val; omega

/-- An index of the output is in point `t`'s block iff its row is among the block's 4000 rows. -/
theorem mem_blk2 (t : Fin cfg1.N) (i : S100000x40.Idx) :
    i ∈ ((cfg1.win 7).blk t).view.set ↔ ∀ a : Fin 2, win1_7.index t a * S4000x40.size a ≤ (i a).val ∧ (i a).val < win1_7.index t a * S4000x40.size a + S4000x40.size a := by
  show i ∈ ((View.whole main_v43).slice (win1_7.rect t)).set ↔ _
  rw [View.set_slice_whole, Rect.mem_set_unit]
  exact Iff.rfl

/-- Every row is in the block of the point `row / 4000`. -/
theorem cover2 (i : S100000x40.Idx) : ∃ t : Fin cfg1.N, (cfg1.win 7).flush t = true ∧ i ∈ ((cfg1.win 7).blk t).view.set := by
  have hi0 : (i 0).val < 100000 := (i 0).isLt
  have hi1 : (i 1).val < 40 := (i 1).isLt
  have hN : cfg1.N = 25 := N_1
  let t : Fin cfg1.N := ⟨(i 0).val / 4000, by rw [hN]; omega⟩
  obtain ⟨a00, a01, a10, a11, a20, a21, b00, b01, b10, b11, b20, b21, s0, s1, o0, o1⟩ := idx2 t
  have o0' : win1_7.index t (0 : Fin 2) = (i 0).val / 4000 := o0
  refine ⟨t, flush1_7 t, ?_⟩
  rw [mem_blk2]
  intro a
  match a with
  | ⟨0, _⟩ => show win1_7.index t (0 : Fin 2) * 4000 ≤ (i 0).val ∧ (i 0).val < win1_7.index t (0 : Fin 2) * 4000 + 4000; omega
  | ⟨1, _⟩ => show win1_7.index t (1 : Fin 2) * 40 ≤ (i 1).val ∧ (i 1).val < win1_7.index t (1 : Fin 2) * 40 + 40; omega

/-- The second kernel's output array after its 25 points: the three-product form of the arrays it was entered with. -/
theorem array2 (c : Dev nD) : (dat1 V c).arrAt 7 cfg1.N
    = outTiles (φ := .bf16) (ψ := .bf16) (V c main_v30) (V c main_v31) (V c main_v32) (V c main_v35) (V c main_v38) (V c main_v41) (V c main_v42) :=
  (dat1 V c).arrAt_eq_of_cover 7 _ (fun t _ => flushed2 V c t) cover2

end Cert.KernelIdeal.Tiles

end
-- ==== Proof.HostReads.lean ====
/-
  What the host operations of the idealized kernel's program leave in the arrays the two kernels are entered with.

  Before the first kernel: `x` cast, and `fc1_w` transposed and cast. Between the kernels, from the first kernel's
  output `h0`: the two sparse propagations `h1`, `h2` (a row gather of `h0` at the edge's column index, negative indices
  wrapped by the row count; each gathered row scaled by the edge's value; the scaled rows added into the row the
  edge's row index names, starting from zeros), the casts of `h0`, `h1`, `h2`, the three 64-column bands of
  `fc_out_w` transposed and cast, and the bias as one row. Each propagation is carried as ONE function of `h0` and the
  edge arrays (`prop1`, `prop2`) and is never opened: the reference applies the same two functions to its own `h0`.
-/
import proofs.«109678_j43671227466239_1_alg».proof.Proof.KernelRun
import proofs.«109678_j43671227466239_1_alg».proof.Proof.Tiles
import Idealize.ShloMosaic.Lib.StableHlo.Run
import Idealize.ShloMosaic.PureOps.Ideal
import Idealize.ShloMosaic.PureOps.Ideal.Laws

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen Cert.Layers

/-- The 1-hop propagation: `out[r] = ∑ over edges e with rows[e] = r of vals[e] · h0[cols[e]]`, as the host computes it. -/
def prop1 (h0 : FVec Ideal S100000x64 .f32) (rows cols : IVec S1600000 32) (vals : FVec Ideal S1600000 .f32) :
    FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 rows)
    (mulf (broadcastInDim S1600000x64 ![0, 1] bcast_S1600000x1_S1600000x64_0_1 (broadcastInDim S1600000x1 ![0] bcast_S1600000_S1600000x1_0 vals))
      (Host.gather gather_S100000x64_S1600000x1_S1600000x64_1_0_n_n_0_1_164 h0
        (broadcastInDim S1600000x1 ![0] bcast_S1600000_S1600000x1_0
          (select (cmpi .slt cols (broadcastInDim S1600000 ![] bcast_S_S1600000 (constantI S_ 32 0#32)))
            (addi cols (broadcastInDim S1600000 ![] bcast_S_S1600000 (constantI S_ 32 100000#32))) cols))))

/-- The 2-hop propagation: the same over the second edge list. -/
def prop2 (h0 : FVec Ideal S100000x64 .f32) (rows cols : IVec S3200000 32) (vals : FVec Ideal S3200000 .f32) :
    FVec Ideal S100000x64 .f32 :=
  Host.scatterAdd (F := Ideal) scatter_S100000x64_S3200000x1_S3200000x64_1_0_0_1
    (broadcastInDim S100000x64 ![] bcast_S_S100000x64 (constant (F := Ideal) S_ .f32 0x00000000#32))
    (broadcastInDim S3200000x1 ![0] bcast_S3200000_S3200000x1_0 rows)
    (mulf (broadcastInDim S3200000x64 ![0, 1] bcast_S3200000x1_S3200000x64_0_1 (broadcastInDim S3200000x1 ![0] bcast_S3200000_S3200000x1_0 vals))
      (Host.gather gather_S100000x64_S3200000x1_S3200000x64_1_0_n_n_0_1_164 h0
        (broadcastInDim S3200000x1 ![0] bcast_S3200000_S3200000x1_0
          (select (cmpi .slt cols (broadcastInDim S3200000 ![] bcast_S_S3200000 (constantI S_ 32 0#32)))
            (addi cols (broadcastInDim S3200000 ![] bcast_S_S3200000 (constantI S_ 32 100000#32))) cols))))

variable (m : (ℓ : Loc nD τ sig) → Buf (Elt Ideal) ℓ) (ρ : Dev nD → PrngReg)

/-! ## Before the first kernel -/

theorem entry1_x (c : Dev nD) :
    V1 m ρ c main_v0 = (truncf .bf16 (m ((c : Thread nD τ).loc main_arg0)) bitsLt_bf16_f32 : FVec Ideal S100000x256 .bf16) := by
  show StableHlo.after hostOps0 (W0 m ρ c) (Proc.devRef .tc main_v0) = _
  after_results <;> rfl

theorem entry1_w (c : Dev nD) :
    V1 m ρ c main_v2 = (truncf .bf16 (transpose S256x64 [1, 0] (m ((c : Thread nD τ).loc main_arg8)) transposes_S64x256_S256x64_1_0)
      bitsLt_bf16_f32 : FVec Ideal S256x64 .bf16) := by
  show StableHlo.after hostOps0 (W0 m ρ c) (Proc.devRef .tc main_v2) = _
  after_results <;> rfl

/-- The first kernel's output array: the first layer of `x` and `fc1_w` transposed. -/
theorem firstLayer (c : Dev nD) :
    W2 m ρ c (Proc.devRef .tc main_v3)
      = dense1 (φ₁ := .f32) (φ₂ := .f32) (m ((c : Thread nD τ).loc main_arg0)) (transpose S256x64 [1, 0] (m ((c : Thread nD τ).loc main_arg8)) transposes_S64x256_S256x64_1_0) := by
  refine (W2_arr m ρ c 2).trans ((Tiles.array1 (V1 m ρ) c).trans ?_)
  rw [entry1_x, entry1_w]
  exact dense1_cast _ _ _

/-- An argument array is still as launched when the second stretch of host operations reads it. -/
theorem arg_kept (c : Dev nD) (a : Ref sig .tc) (h2 : ∀ w, Pipeline.arrRef spec0 w ≠ a)
    (h1 : StableHlo.after hostOps0 (W0 m ρ c) (Proc.devRef .tc a) = W0 m ρ c (Proc.devRef .tc a)) :
    W2 m ρ c (Proc.devRef .tc a) = m ((c : Thread nD τ).loc a) :=
  (W2_of_ne m ρ c a h2).trans h1

theorem kept2 (c : Dev nD) : W2 m ρ c (Proc.devRef .tc main_arg2) = m ((c : Thread nD τ).loc main_arg2) :=
  arg_kept m ρ c main_arg2 (by decide) (by after_results <;> rfl)
theorem kept3 (c : Dev nD) : W2 m ρ c (Proc.devRef .tc main_arg3) = m ((c : Thread nD τ).loc main_arg3) :=
  arg_kept m ρ c main_arg3 (by decide) (by after_results <;> rfl)
theorem kept4 (c : Dev nD) : W2 m ρ c (Proc.devRef .tc main_arg4) = m ((c : Thread nD τ).loc main_arg4) :=
  arg_kept m ρ c main_arg4 (by decide) (by after_results <;> rfl)
theorem kept5 (c : Dev nD) : W2 m ρ c (Proc.devRef .tc main_arg5) = m ((c : Thread nD τ).loc main_arg5) :=
  arg_kept m ρ c main_arg5 (by decide) (by after_results <;> rfl)
theorem kept6 (c : Dev nD) : W2 m ρ c (Proc.devRef .tc main_arg6) = m ((c : Thread nD τ).loc main_arg6) :=
  arg_kept m ρ c main_arg6 (by decide) (by after_results <;> rfl)
theorem kept7 (c : Dev nD) : W2 m ρ c (Proc.devRef .tc main_arg7) = m ((c : Thread nD τ).loc main_arg7) :=
  arg_kept m ρ c main_arg7 (by decide) (by after_results <;> rfl)
theorem kept9 (c : Dev nD) : W2 m ρ c (Proc.devRef .tc main_arg9) = m ((c : Thread nD τ).loc main_arg9) :=
  arg_kept m ρ c main_arg9 (by decide) (by after_results <;> rfl)
theorem kept10 (c : Dev nD) : W2 m ρ c (Proc.devRef .tc main_arg10) = m ((c : Thread nD τ).loc main_arg10) :=
  arg_kept m ρ c main_arg10 (by decide) (by after_results <;> rfl)

/-! ## Between the kernels: the arrays the second kernel is entered with -/

theorem entry2_h0 (c : Dev nD) :
    V3 m ρ c main_v30 = (truncf .bf16 (W2 m ρ c (Proc.devRef .tc main_v3)) bitsLt_bf16_f32 : FVec Ideal S100000x64 .bf16) := by
  show StableHlo.after hostOps1 (W2 m ρ c) (Proc.devRef .tc main_v30) = _
  after_results_simp <;> rfl

theorem entry2_h1 (c : Dev nD) :
    V3 m ρ c main_v31 = (truncf .bf16 (prop1 (W2 m ρ c (Proc.devRef .tc main_v3)) (W2 m ρ c (Proc.devRef .tc main_arg2)) (W2 m ρ c (Proc.devRef .tc main_arg3)) (W2 m ρ c (Proc.devRef .tc main_arg4)))
      bitsLt_bf16_f32 : FVec Ideal S100000x64 .bf16) := by
  show StableHlo.after hostOps1 (W2 m ρ c) (Proc.devRef .tc main_v31) = _
  after_results_simp <;> rfl

theorem entry2_h2 (c : Dev nD) :
    V3 m ρ c main_v32 = (truncf .bf16 (prop2 (W2 m ρ c (Proc.devRef .tc main_v3)) (W2 m ρ c (Proc.devRef .tc main_arg5)) (W2 m ρ c (Proc.devRef .tc main_arg6)) (W2 m ρ c (Proc.devRef .tc main_arg7)))
      bitsLt_bf16_f32 : FVec Ideal S100000x64 .bf16) := by
  show StableHlo.after hostOps1 (W2 m ρ c) (Proc.devRef .tc main_v32) = _
  after_results_simp <;> rfl

theorem entry2_w0 (c : Dev nD) :
    V3 m ρ c main_v35 = (truncf .bf16 (transpose S64x40 [1, 0] (extractStridedSlice S40x64 ![0, 0] (W2 m ρ c (Proc.devRef .tc main_arg9)) slices_S40x192_S40x64_0_0)
      transposes_S40x64_S64x40_1_0) bitsLt_bf16_f32 : FVec Ideal S64x40 .bf16) := by
  show StableHlo.after hostOps1 (W2 m ρ c) (Proc.devRef .tc main_v35) = _
  after_results_simp <;> rfl

theorem entry2_w1 (c : Dev nD) :
    V3 m ρ c main_v38 = (truncf .bf16 (transpose S64x40 [1, 0] (extractStridedSlice S40x64 ![0, 64] (W2 m ρ c (Proc.devRef .tc main_arg9)) slices_S40x192_S40x64_0_64)
      transposes_S40x64_S64x40_1_0) bitsLt_bf16_f32 : FVec Ideal S64x40 .bf16) := by
  show StableHlo.after hostOps1 (W2 m ρ c) (Proc.devRef .tc main_v38) = _
  after_results_simp <;> rfl

theorem entry2_w2 (c : Dev nD) :
    V3 m ρ c main_v41 = (truncf .bf16 (transpose S64x40 [1, 0] (extractStridedSlice S40x64 ![0, 128] (W2 m ρ c (Proc.devRef .tc main_arg9)) slices_S40x192_S40x64_0_128)
      transposes_S40x64_S64x40_1_0) bitsLt_bf16_f32 : FVec Ideal S64x40 .bf16) := by
  show StableHlo.after hostOps1 (W2 m ρ c) (Proc.devRef .tc main_v41) = _
  after_results_simp <;> rfl

theorem entry2_b (c : Dev nD) :
    V3 m ρ c main_v42 = (shapeCast S1x40 (W2 m ρ c (Proc.devRef .tc main_arg10)) shapeCasts_S40_S1x40 : FVec Ideal S1x40 .f32) := by
  show StableHlo.after hostOps1 (W2 m ρ c) (Proc.devRef .tc main_v42) = _
  after_results_simp <;> rfl

/-! ## The result -/

/-- The idealized kernel's result array: the three-band output layer of `h0 = x · fc1_wᵀ` and its two propagations. -/
theorem result_eq (c : Dev nD) :
    (dat1 (V3 m ρ) c).arrAt 7 cfg1.N
      = outBands
          (dense1 (φ₁ := .f32) (φ₂ := .f32) (m ((c : Thread nD τ).loc main_arg0)) (transpose S256x64 [1, 0] (m ((c : Thread nD τ).loc main_arg8)) transposes_S64x256_S256x64_1_0))
          (prop1 (dense1 (φ₁ := .f32) (φ₂ := .f32) (m ((c : Thread nD τ).loc main_arg0)) (transpose S256x64 [1, 0] (m ((c : Thread nD τ).loc main_arg8)) transposes_S64x256_S256x64_1_0))
            (m ((c : Thread nD τ).loc main_arg2)) (m ((c : Thread nD τ).loc main_arg3)) (m ((c : Thread nD τ).loc main_arg4)))
          (prop2 (dense1 (φ₁ := .f32) (φ₂ := .f32) (m ((c : Thread nD τ).loc main_arg0)) (transpose S256x64 [1, 0] (m ((c : Thread nD τ).loc main_arg8)) transposes_S64x256_S256x64_1_0))
            (m ((c : Thread nD τ).loc main_arg5)) (m ((c : Thread nD τ).loc main_arg6)) (m ((c : Thread nD τ).loc main_arg7)))
          (m ((c : Thread nD τ).loc main_arg9)) (m ((c : Thread nD τ).loc main_arg10)) := by
  rw [Tiles.array2 (V3 m ρ) c, entry2_h0, entry2_h1, entry2_h2, entry2_w0, entry2_w1, entry2_w2, entry2_b, firstLayer,
    kept2, kept3, kept4, kept5, kept6, kept7, kept9, kept10]
  exact outTiles_eq_outBands _ _ _ _ _ bitsLt_bf16_f32 slices_S40x192_S40x64_0_0 slices_S40x192_S40x64_0_64
    slices_S40x192_S40x64_0_128 transposes_S40x64_S64x40_1_0 shapeCasts_S40_S1x40

end Cert.KernelIdeal.Host

end
-- ==== Proof.RefValue.lean ====
/-
  The reference's result as one function of its arguments, and that function in the three-band form.

  The reference computes `h0 = x · fc1_wᵀ` by one `dot_general`, the two sparse propagations `h1`, `h2` of `h0`
  (carried as the functions `prop1`, `prop2` and never opened), joins `h0 | h1 | h2`, multiplies by `fc_out_wᵀ` and adds
  the bias broadcast over the rows. Its `dot_general`s are plain sums at exact arithmetic, and the sum over the 192
  joined columns splits into its three bands (`Cert.Layers.joined_eq_outBands`).
-/
import proofs.«109678_j43671227466239_1_alg».proof.Proof.Gen.ReferenceIdeal.Run
import proofs.«109678_j43671227466239_1_alg».proof.Proof.Layers

set_option maxRecDepth 16384

noncomputable section

namespace Cert.ReferenceIdeal.Stages

open Idealize.ShloMosaic Idealize.ShloMosaic.TcCoe Idealize.SL.Sem
open Cert.ReferenceIdeal Cert.ReferenceIdeal.Facts₀ Cert.Layers

/-- The 1-hop propagation: `out[r] = ∑ over edges e with rows[e] = r of vals[e] · h0[cols[e]]`, as the host computes it. -/
def prop1 (h0 : FVec Ideal S100000x64 .f32) (rows cols : IVec S1600000 32) (vals : FVec Ideal S1600000 .f32) :
    FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 rows)
    (mulf (broadcastInDim S1600000x64 ![0, 1] bcast_S1600000x1_S1600000x64_0_1 (broadcastInDim S1600000x1 ![0] bcast_S1600000_S1600000x1_0 vals))
      (Host.gather gather_S100000x64_S1600000x1_S1600000x64_1_0_n_n_0_1_164 h0
        (broadcastInDim S1600000x1 ![0] bcast_S1600000_S1600000x1_0
          (select (cmpi .slt cols (broadcastInDim S1600000 ![] bcast_S_S1600000 (constantI S_ 32 0#32)))
            (addi cols (broadcastInDim S1600000 ![] bcast_S_S1600000 (constantI S_ 32 100000#32))) cols))))

/-- The 2-hop propagation: the same over the second edge list. -/
def prop2 (h0 : FVec Ideal S100000x64 .f32) (rows cols : IVec S3200000 32) (vals : FVec Ideal S3200000 .f32) :
    FVec Ideal S100000x64 .f32 :=
  Host.scatterAdd (F := Ideal) scatter_S100000x64_S3200000x1_S3200000x64_1_0_0_1
    (broadcastInDim S100000x64 ![] bcast_S_S100000x64 (constant (F := Ideal) S_ .f32 0x00000000#32))
    (broadcastInDim S3200000x1 ![0] bcast_S3200000_S3200000x1_0 rows)
    (mulf (broadcastInDim S3200000x64 ![0, 1] bcast_S3200000x1_S3200000x64_0_1 (broadcastInDim S3200000x1 ![0] bcast_S3200000_S3200000x1_0 vals))
      (Host.gather gather_S100000x64_S3200000x1_S3200000x64_1_0_n_n_0_1_164 h0
        (broadcastInDim S3200000x1 ![0] bcast_S3200000_S3200000x1_0
          (select (cmpi .slt cols (broadcastInDim S3200000 ![] bcast_S_S3200000 (constantI S_ 32 0#32)))
            (addi cols (broadcastInDim S3200000 ![] bcast_S_S3200000 (constantI S_ 32 100000#32))) cols))))

/-- The reference's first layer: one `dot_general` of `x` with `fc1_w` transposed. -/
def first (x0 : FVec Ideal S100000x256 .f32) (x8 : FVec Ideal S64x256 .f32) : FVec Ideal S100000x64 .f32 :=
  Host.dotGeneral (F := Ideal) dot_S100000x256_S256x64_S100000x64_1_0_0_1_n_n none x0
    (transpose S256x64 [1, 0] x8 transposes_S64x256_S256x64_1_0)

/-- The reference's result as a function of its arguments. -/
def result (x0 : FVec Ideal S100000x256 .f32) (x2 x3 : IVec S1600000 32) (x4 : FVec Ideal S1600000 .f32)
    (x5 x6 : IVec S3200000 32) (x7 : FVec Ideal S3200000 .f32) (x8 : FVec Ideal S64x256 .f32)
    (x9 : FVec Ideal S40x192 .f32) (x10 : FVec Ideal S40 .f32) : FVec Ideal S100000x40 .f32 :=
  addf (Host.dotGeneral (F := Ideal) dot_S100000x192_S192x40_S100000x40_1_0_0_1_n_n none
      (concatenate S100000x192 1 [⟨S100000x64, first x0 x8⟩, ⟨S100000x64, prop1 (first x0 x8) x2 x3 x4⟩,
        ⟨S100000x64, prop2 (first x0 x8) x5 x6 x7⟩] concatenates_S100000x64_S100000x64_S100000x64_S100000x192_d1)
      (transpose S192x40 [1, 0] x9 transposes_S40x192_S192x40_1_0))
    (broadcastInDim S100000x40 ![0, 1] bcast_S1x40_S100000x40_0_1 (broadcastInDim S1x40 ![1] bcast_S40_S1x40_1 x10))

/-- The reference's first layer is the sum `∑ j, x[n, j] · fc1_w[c, j]`. -/
theorem first_eq (x0 : FVec Ideal S100000x256 .f32) (x8 : FVec Ideal S64x256 .f32) :
    first x0 x8 = dense1 x0 (transpose S256x64 [1, 0] x8 transposes_S64x256_S256x64_1_0) :=
  dotGeneral_eq_dense1 x0 (transpose S256x64 [1, 0] x8 transposes_S64x256_S256x64_1_0)

/-- The reference's result in the three-band form of the output layer. -/
theorem result_eq (x0 : FVec Ideal S100000x256 .f32) (x2 x3 : IVec S1600000 32) (x4 : FVec Ideal S1600000 .f32)
    (x5 x6 : IVec S3200000 32) (x7 : FVec Ideal S3200000 .f32) (x8 : FVec Ideal S64x256 .f32)
    (x9 : FVec Ideal S40x192 .f32) (x10 : FVec Ideal S40 .f32) :
    result x0 x2 x3 x4 x5 x6 x7 x8 x9 x10
      = outBands (first x0 x8) (prop1 (first x0 x8) x2 x3 x4) (prop2 (first x0 x8) x5 x6 x7) x9 x10 :=
  joined_eq_outBands (first x0 x8) (prop1 (first x0 x8) x2 x3 x4) (prop2 (first x0 x8) x5 x6 x7) x9 x10
    concatenates_S100000x64_S100000x64_S100000x64_S100000x192_d1 transposes_S40x192_S192x40_1_0 bcast_S40_S1x40_1
    bcast_S1x40_S100000x40_0_1

end Cert.ReferenceIdeal.Stages

end
-- ==== Proof.lean ====
/-
  The certificate of the two-kernel message-passing network against its reference.

  Both programs compute, for every node `n` and output channel `o`,
  `out[n, o] = ∑ k < 192, h[n, k] · fc_out_w[o, k] + fc_out_b[o]` where `h = h0 | h1 | h2`, `h0 = x · fc1_wᵀ`, and
  `h1`, `h2` are the 1-hop and 2-hop sparse propagations of `h0` (the same host operations in both programs).
  The kernel computes `h0` on 25 row tiles of 4000 rows from operands cast to a narrower float format, and the output on
  25 row tiles as the sum of three 64-term products, one per band of `fc_out_w`, never forming `h`. At exact arithmetic
  the casts are the identity, a tiled product is the product, and the sum over 192 columns is the sum of its three
  bands: associativity and commutativity of addition only, so the precondition (finite inputs) is not used by the
  value claim.

  Modules: Layers (the two layers as whole-array functions and the band law), Tiles (each kernel's output array as
  that function of the arrays it is entered with), KernelRun (the kernel program's run with its result named),
  HostReads (what the host operations put in those arrays), RefValue (the reference's result in the band form).
  The three frames are the generated frame runs; the idealization rewrote nothing, so `preserves` is trivial.
-/
import proofs.«109678_j43671227466239_1_alg».proof.Defs
import proofs.«109678_j43671227466239_1_alg».proof.Proof.Gen.Kernel
import proofs.«109678_j43671227466239_1_alg».proof.Proof.Gen.Kernel.Skeleton
import proofs.«109678_j43671227466239_1_alg».proof.Proof.Gen.Kernel.Launch
import proofs.«109678_j43671227466239_1_alg».proof.Proof.Gen.Kernel.Points
import proofs.«109678_j43671227466239_1_alg».proof.Proof.Gen.Kernel.Frame
import proofs.«109678_j43671227466239_1_alg».proof.Proof.Gen.KernelIdeal
import proofs.«109678_j43671227466239_1_alg».proof.Proof.Gen.KernelIdeal.Skeleton
import proofs.«109678_j43671227466239_1_alg».proof.Proof.Gen.KernelIdeal.Launch
import proofs.«109678_j43671227466239_1_alg».proof.Proof.Gen.KernelIdeal.Points
import proofs.«109678_j43671227466239_1_alg».proof.Proof.Gen.KernelIdeal.Frame
import proofs.«109678_j43671227466239_1_alg».proof.Proof.Gen.ReferenceIdeal
import proofs.«109678_j43671227466239_1_alg».proof.Proof.Gen.ReferenceIdeal.Run
import proofs.«109678_j43671227466239_1_alg».proof.Proof.Gen.ReferenceIdeal.Read
import proofs.«109678_j43671227466239_1_alg».proof.Proof.Gen.Pre_finite_inputs
import proofs.«109678_j43671227466239_1_alg».proof.Proof.KernelRun
import proofs.«109678_j43671227466239_1_alg».proof.Proof.HostReads
import proofs.«109678_j43671227466239_1_alg».proof.Proof.RefValue
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two propagations are the same functions in both programs. -/
theorem prop1_eq : Cert.ReferenceIdeal.Stages.prop1 = Cert.KernelIdeal.Host.prop1 := rfl
theorem prop2_eq : Cert.ReferenceIdeal.Stages.prop2 = Cert.KernelIdeal.Host.prop2 := rfl

/-- Both runs end, from memories agreeing on the arguments, with the three-band output layer of
    `h0 = x · fc1_wᵀ`, `h1 = prop1 h0`, `h2 = prop2 h0`. -/
theorem algebraic : Cert.algebraic_KernelIdeal_ReferenceIdeal := by
  intro m ρ m' ρ' _ hagree
  refine ⟨fun c => (Cert.KernelIdeal.Gen.dat1 (Cert.KernelIdeal.Gen.V3 m ρ) c).arrAt 7 Cert.KernelIdeal.cfg1.N,
    Cert.KernelIdeal.Named.run_named (F := Ideal) m ρ, ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5, e6, e7, e8, e9, e10⟩ := hagree c
  show Cert.ReferenceIdeal.Stages.result
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
    = (Cert.KernelIdeal.Gen.dat1 (Cert.KernelIdeal.Gen.V3 m ρ) c).arrAt 7 Cert.KernelIdeal.cfg1.N
  rw [e0, e2, e3, e4, e5, e6, e7, e8, e9, e10, Cert.KernelIdeal.Host.result_eq m ρ c, Cert.ReferenceIdeal.Stages.result_eq,
    Cert.ReferenceIdeal.Stages.first_eq, prop1_eq, prop2_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
